-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥
  ∧ IdealRules.named_const.Statement Cert.KernelIdeal.κ "pos_big" .f32 0x7F333332#32 ⊤
  ∧ IdealRules.named_const.Statement Cert.KernelIdeal.κ "neg_big" .f32 0xFF333332#32 ⊥
  ∧ IdealRules.named_const.Statement Cert.KernelIdeal.κ "pos_big" .f32 0x7F333332#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S128x8192 : Shape := ⟨2, ![128, 8192]⟩
abbrev S8192x1 : Shape := ⟨2, ![8192, 1]⟩
abbrev S1x8192 : Shape := ⟨2, ![1, 8192]⟩
abbrev S_ : Shape := ⟨0, ![]⟩
abbrev S8192x8192 : Shape := ⟨2, ![8192, 8192]⟩
abbrev S1024x128 : Shape := ⟨2, ![1024, 128]⟩
abbrev S128x1024 : Shape := ⟨2, ![128, 1024]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 16
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x1, .i32⟩
  | .hbm, ⟨4, _⟩ => ⟨S1x8192, .i32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S128x1024, .f32⟩
  | .local _ .vmem, ⟨3, _⟩ => ⟨S128x1024, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_28 : BitVec 32 := 0#32
  let v48 : BitVec 1 := Scalar.cmpi .ne v47 c0_i32_28
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S8192x128_S128x8192_1_0 : S8192x128.Transposes [1, 0] S128x8192
  shapeCasts_S8192_S8192x1 : S8192.ShapeCasts S8192x1
  shapeCasts_S8192_S1x8192 : S8192.ShapeCasts S1x8192
  reducesTo_S8192x128_S8192_d1 : S8192x128.ReducesTo [1] S8192
  h_S_ : 0 < S_.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reducesTo_S8192x1_S_d0_1 : S8192x1.ReducesTo [0, 1] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x8192.size a
  hwx0_1 : ∀ i : grid0.Coords, EltTy.bits .f32 = 32 ∨ (Rect.block (s := S128x8192) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x8192.size a
  hwx0_6 : ∀ i : grid0.Coords, EltTy.bits .f32 = 32 ∨ (Rect.block (s := S8192x8192) S1024x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S1024x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 62
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .i1⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_call2_v0 : Ref sig .tc := ⟨.hbm, 40, rfl⟩
abbrev main_call2_v1 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_cst_8 : Ref sig .tc := ⟨.hbm, 45, rfl⟩
abbrev main_call3_v0 : Ref sig .tc := ⟨.hbm, 46, rfl⟩
abbrev main_call3_v1 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_cst_10 : Ref sig .tc := ⟨.hbm, 52, rfl⟩
abbrev main_v31 : Ref sig .tc := ⟨.hbm, 53, rfl⟩
abbrev main_v32 : Ref sig .tc := ⟨.hbm, 54, rfl⟩
abbrev main_call4_cst : Ref sig .tc := ⟨.hbm, 55, rfl⟩
abbrev main_call4_v0 : Ref sig .tc := ⟨.hbm, 56, rfl⟩
abbrev main_v33 : Ref sig .tc := ⟨.hbm, 57, rfl⟩
abbrev main_cst_11 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Frames.lean ====
/-
  The three frame conjuncts and the idealization's ledger entries.

  The word-level kernel and its idealization run a two-axis grid of 8 x 8 points; each program's frame run says every
  weakly fair execution ends, faults nowhere and leaves the two argument arrays as found.  The reference launches no
  kernel: its frame is its run with the results forgotten.  The four ledger entries name the two finite fill words the
  kernel uses for "no candidate yet" as the infinities they stand for.
-/
import proofs.«103080_j6536940224733_2_alg».proof.Defs
import proofs.«103080_j6536940224733_2_alg».proof.Proof.Gen.Kernel.Frame
import proofs.«103080_j6536940224733_2_alg».proof.Proof.Gen.KernelIdeal.Frame
import proofs.«103080_j6536940224733_2_alg».proof.Proof.RefRunP
import proofs.«103080_j6536940224733_2_alg».proof.Proof.Gen.ReferenceIdeal
import proofs.«103080_j6536940224733_2_alg».proof.Proof.Gen.Pre_finite_inputs

noncomputable section

open Idealize.ShloMosaic Idealize.SL.Sem

namespace Cert.Proof.Frames

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.ValueP.run (F := Ideal) m ρ)

/-- Each named fill word denotes, at the ideal instance, the infinity the table gives it. -/
theorem preserves : Cert.preserves_Kernel_KernelIdeal :=
  ⟨IdealRules.named_const.statement Cert.KernelIdeal.κ "neg_big" .f32 0xFF333332#32 ⊥ rfl,
   IdealRules.named_const.statement Cert.KernelIdeal.κ "pos_big" .f32 0x7F333332#32 ⊤ rfl,
   IdealRules.named_const.statement Cert.KernelIdeal.κ "neg_big" .f32 0xFF333332#32 ⊥ rfl,
   IdealRules.named_const.statement Cert.KernelIdeal.κ "pos_big" .f32 0x7F333332#32 ⊤ rfl⟩

end Cert.Proof.Frames

end
-- ==== Proof.Pieces.lean ====
/-
  What each case of the kernel body leaves behind, as values.

  The body runs in one of three cases: at the first column tile of a row of tiles (A) it first resets the two scratch columns,
  at the last (C) it also stores the row losses, in between (B) it does neither.  In every case the distance tile it stores is
  the distance payload of the four float blocks it loaded; the scratch columns end at "max of (what they held, the tile's row
  maximum)" and "min of (what they held, the tile's row minimum)", where in case A what they held is the reset value; and in
  case C the stored losses are the loss payload of the two scratch columns as just updated.
-/
import proofs.«103080_j6536940224733_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.Triplet.Pieces

open Cert.KernelIdeal Cert.KernelIdeal.Gen

variable {F : FTy → Type} [FloatOps F] [Named F]

theorem hz : (![0, 0] : Fin 2 → Nat) = fun _ => 0 := funext fun a => by fin_cases a <;> rfl

/-- Case A: the stored distance tile. -/
theorem dist_A (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x128 .f32) (x1 : Vec F S128x1024 .f32) (x2 : Vec F S1024x1 .i32) (x3 : Vec F S1x1024 .i32) (x4 : Vec F S1024x1 .f32) (x5 : Vec F S1x1024 .f32) :
    out0_A_6 c i arg2 harg2 arg3 harg3 arg4 harg4 arg5 harg5 arg6 harg6 arg7 harg7 arg8 harg8 arg9 harg9 arg10 harg10 arg11 harg11 hc0 hc1 x0 x1 x2 x3 x4 x5 = k0_pay6 x0 x1 x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  rw [View.canon_unit_zero hz]
  simp only [View.readAt_eq_ld, harg2.read_unread, harg3.read_unread, harg4.read_unread, harg5.read_unread, harg6.read_unread, harg7.read_unread, harg10.read_unread, harg11.read_unread,
    View.ld_unit_zero (S := S1024x128) hz, View.ld_unit_zero (S := S128x1024) hz, View.ld_unit_zero (S := S1024x1) hz,
    View.ld_unit_zero (S := S1x1024) hz]

/-- Case B: the stored distance tile. -/
theorem dist_B (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x128 .f32) (x1 : Vec F S128x1024 .f32) (x2 : Vec F S1024x1 .i32) (x3 : Vec F S1x1024 .i32) (x4 : Vec F S1024x1 .f32) (x5 : Vec F S1x1024 .f32) (xs0 : Vec F S1024x1 .f32) (xs1 : Vec F S1024x1 .f32) :
    out0_B_6 c i arg2 harg2 arg3 harg3 arg4 harg4 arg5 harg5 arg6 harg6 arg7 harg7 arg8 harg8 arg9 harg9 arg10 harg10 arg11 harg11 hc0 hc1 x0 x1 x2 x3 x4 x5 xs0 xs1 = k0_pay6 x0 x1 x4 x5 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  rw [View.canon_unit_zero hz]
  simp only [View.readAt_eq_ld, harg2.read_unread, harg3.read_unread, harg4.read_unread, harg5.read_unread, harg6.read_unread, harg7.read_unread, harg10.read_unread, harg11.read_unread,
    View.ld_unit_zero (S := S1024x128) hz, View.ld_unit_zero (S := S128x1024) hz, View.ld_unit_zero (S := S1024x1) hz,
    View.ld_unit_zero (S := S1x1024) hz]

/-- Case C: the stored distance tile. -/
theorem dist_C (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x128 .f32) (x1 : Vec F S128x1024 .f32) (x2 : Vec F S1024x1 .i32) (x3 : Vec F S1x1024 .i32) (x4 : Vec F S1024x1 .f32) (x5 : Vec F S1x1024 .f32) (xs0 : Vec F S1024x1 .f32) (xs1 : Vec F S1024x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 = k0_pay6 x0 x1 x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  rw [View.canon_unit_zero hz]
  simp only [View.readAt_eq_ld, harg2.read_unread, harg3.read_unread, harg4.read_unread, harg5.read_unread, harg6.read_unread, harg7.read_unread, harg10.read_unread, harg11.read_unread,
    View.ld_unit_zero (S := S1024x128) hz, View.ld_unit_zero (S := S128x1024) hz, View.ld_unit_zero (S := S1024x1) hz,
    View.ld_unit_zero (S := S1x1024) hz]

/-- Case A: the running maximum column after the body. -/
theorem smax_A (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x128 .f32) (x1 : Vec F S128x1024 .f32) (x2 : Vec F S1024x1 .i32) (x3 : Vec F S1x1024 .i32) (x4 : Vec F S1024x1 .f32) (x5 : Vec F S1x1024 .f32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay1 (k0_pay8 x0 x1 x4 x5 x2 x3) (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg10.read_unread, harg11.read_unread,
    View.ld_unit_zero (S := S1024x128) hz, View.ld_unit_zero (S := S128x1024) hz, View.ld_unit_zero (S := S1024x1) hz,
    View.ld_unit_zero (S := S1x1024) hz]

/-- Case A: the running minimum column after the body. -/
theorem smin_A (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x128 .f32) (x1 : Vec F S128x1024 .f32) (x2 : Vec F S1024x1 .i32) (x3 : Vec F S1x1024 .i32) (x4 : Vec F S1024x1 .f32) (x5 : Vec F S1x1024 .f32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay2 (k0_pay9 x0 x1 x4 x5 x2 x3) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg10.read_unread, harg11.read_unread,
    View.ld_unit_zero (S := S1024x128) hz, View.ld_unit_zero (S := S128x1024) hz, View.ld_unit_zero (S := S1024x1) hz,
    View.ld_unit_zero (S := S1x1024) hz]

/-- Case B: the running maximum column after the body. -/
theorem smax_B (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x128 .f32) (x1 : Vec F S128x1024 .f32) (x2 : Vec F S1024x1 .i32) (x3 : Vec F S1x1024 .i32) (x4 : Vec F S1024x1 .f32) (x5 : Vec F S1x1024 .f32) (xs0 : Vec F S1024x1 .f32) (xs1 : Vec F S1024x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay8 x0 x1 x4 x5 x2 x3) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg10.read_unread, harg11.read_unread,
    View.ld_unit_zero (S := S1024x128) hz, View.ld_unit_zero (S := S128x1024) hz, View.ld_unit_zero (S := S1024x1) hz,
    View.ld_unit_zero (S := S1x1024) hz]

/-- Case B: the running minimum column after the body. -/
theorem smin_B (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x128 .f32) (x1 : Vec F S128x1024 .f32) (x2 : Vec F S1024x1 .i32) (x3 : Vec F S1x1024 .i32) (x4 : Vec F S1024x1 .f32) (x5 : Vec F S1x1024 .f32) (xs0 : Vec F S1024x1 .f32) (xs1 : Vec F S1024x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay9 x0 x1 x4 x5 x2 x3) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg10.read_unread, harg11.read_unread,
    View.ld_unit_zero (S := S1024x128) hz, View.ld_unit_zero (S := S128x1024) hz, View.ld_unit_zero (S := S1024x1) hz,
    View.ld_unit_zero (S := S1x1024) hz]

/-- Case C: the running maximum column after the body. -/
theorem smax_C (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x128 .f32) (x1 : Vec F S128x1024 .f32) (x2 : Vec F S1024x1 .i32) (x3 : Vec F S1x1024 .i32) (x4 : Vec F S1024x1 .f32) (x5 : Vec F S1x1024 .f32) (xs0 : Vec F S1024x1 .f32) (xs1 : Vec F S1024x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay8 x0 x1 x4 x5 x2 x3) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, harg11.read_unread,
    View.ld_unit_zero (S := S1024x128) hz, View.ld_unit_zero (S := S128x1024) hz, View.ld_unit_zero (S := S1024x1) hz,
    View.ld_unit_zero (S := S1x1024) hz]

/-- Case C: the running minimum column after the body. -/
theorem smin_C (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x128 .f32) (x1 : Vec F S128x1024 .f32) (x2 : Vec F S1024x1 .i32) (x3 : Vec F S1x1024 .i32) (x4 : Vec F S1024x1 .f32) (x5 : Vec F S1x1024 .f32) (xs0 : Vec F S1024x1 .f32) (xs1 : Vec F S1024x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay9 x0 x1 x4 x5 x2 x3) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, harg11.read_unread,
    View.ld_unit_zero (S := S1024x128) hz, View.ld_unit_zero (S := S128x1024) hz, View.ld_unit_zero (S := S1024x1) hz,
    View.ld_unit_zero (S := S1x1024) hz]

/-- Case C: the stored losses are the loss payload of the two scratch columns as the body has just left them. -/
theorem loss_C (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x128 .f32) (x1 : Vec F S128x1024 .f32) (x2 : Vec F S1024x1 .i32) (x3 : Vec F S1x1024 .i32) (x4 : Vec F S1024x1 .f32) (x5 : Vec F S1x1024 .f32) (xs0 : Vec F S1024x1 .f32) (xs1 : Vec F S1024x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1 = k0_pay3 (sout0_C_0 c i arg2 harg2 arg3 harg3 arg4 harg4 arg5 harg5 arg6 harg6 arg7 harg7 arg8 harg8 arg9 harg9 arg10 harg10 arg11 harg11 hc0 hc1 x0 x1 x2 x3 x4 x5 xs0 xs1) (sout0_C_1 c i arg2 harg2 arg3 harg3 arg4 harg4 arg5 harg5 arg6 harg6 arg7 harg7 arg8 harg8 arg9 harg9 arg10 harg10 arg11 harg11 hc0 hc1 x0 x1 x2 x3 x4 x5 xs0 xs1) := by
  rw [smax_C, smin_C]
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg10.read_unread, harg11.read_unread,
    View.ld_unit_zero (S := S1024x128) hz, View.ld_unit_zero (S := S128x1024) hz, View.ld_unit_zero (S := S1024x1) hz,
    View.ld_unit_zero (S := S1x1024) hz]
  rw [View.readCov_unit_zero (S := S1024x1) arg10.view hz, View.readCov_unit_zero (S := S1024x1) arg11.view hz]

end Cert.Triplet.Pieces

end
-- ==== Proof.Spec.lean ====
/-
  The triplet loss with hardest-example mining, as one function of the two arguments, on the extended reals.

  For a matrix x of 8192 rows of 128 numbers and a label word per row:
    sq i      = 0 + sum_k x(i,k)^2                                   the squared norm of row i
    cross i j = sum_k x(i,k) * x(j,k)                                the inner product of rows i and j
    sqd i j   = max ((sq i + sq j) - 2 * cross i j) 0                the squared distance, clipped below at zero
    dist i j  = sqrt (sqd i j)
    hardPos i = the least upper bound over j of (dist i j where the labels agree, -inf elsewhere)
    hardNeg i = the greatest lower bound over j of (+inf where the labels agree, dist i j elsewhere)
    rowLoss i = max ((hardPos i - hardNeg i) + margin) 0
    loss      = (sum_i rowLoss i) / 8192
  The numerals 0, 2, the margin and 8192 stay the f32 words the two programs share; only the zero word is ever evaluated.

  Also here: the two infinity words, the guarded square root the reference spells (where m > 0 take sqrt of (m where m > 0,
  else 1), else 0) against the plain square root of a nonnegative m, and the characterisation of a least upper bound
  (greatest lower bound) by the set of its upper (lower) bounds, by which a maximum taken tile after tile is recognised.
-/
import Idealize.ShloMosaic.PureOps.Ideal.Laws
import Idealize.ShloMosaic.Lib.ValueIdx

noncomputable section

namespace Cert.Triplet

open Idealize.ShloMosaic Idealize.ShloMosaic.ValueIdx
open scoped BigOperators

/-- The squared norm of row `i`, summed from the zero word. -/
def sq (x : Fin 8192 → Fin 128 → EReal) (i : Fin 8192) : EReal :=
  Ideal.ofBits .f32 0x00000000#32 + ∑ k : Fin 128, x i k * x i k

/-- The inner product of rows `i` and `j`. -/
def cross (x : Fin 8192 → Fin 128 → EReal) (i j : Fin 8192) : EReal := ∑ k : Fin 128, x i k * x j k

/-- The squared distance of rows `i` and `j`, clipped below at zero. -/
def sqd (x : Fin 8192 → Fin 128 → EReal) (i j : Fin 8192) : EReal :=
  max ((sq x i + sq x j) - Ideal.ofBits .f32 0x40000000#32 * cross x i j) (Ideal.ofBits .f32 0x00000000#32)

/-- The distance of rows `i` and `j`. -/
def dist (x : Fin 8192 → Fin 128 → EReal) (i j : Fin 8192) : EReal := Ideal.sqrt (sqd x i j)

/-- The candidate row `j` offers row `i` as a positive: the distance where the labels agree, `-inf` elsewhere. -/
def pos (x : Fin 8192 → Fin 128 → EReal) (tg : Fin 8192 → BitVec 32) (i j : Fin 8192) : EReal :=
  Scalar.select (IntOp.cmpi .eq (tg i) (tg j)) (dist x i j) ⊥

/-- The candidate row `j` offers row `i` as a negative: `+inf` where the labels agree, the distance elsewhere. -/
def neg (x : Fin 8192 → Fin 128 → EReal) (tg : Fin 8192 → BitVec 32) (i j : Fin 8192) : EReal :=
  Scalar.select (IntOp.cmpi .eq (tg i) (tg j)) ⊤ (dist x i j)

/-- The hardest positive of row `i`: the farthest row of its label. -/
def hardPos (x : Fin 8192 → Fin 128 → EReal) (tg : Fin 8192 → BitVec 32) (i : Fin 8192) : EReal := ⨆ j, pos x tg i j

/-- The hardest negative of row `i`: the nearest row of another label. -/
def hardNeg (x : Fin 8192 → Fin 128 → EReal) (tg : Fin 8192 → BitVec 32) (i : Fin 8192) : EReal := ⨅ j, neg x tg i j

/-- Row `i`'s margin ranking loss. -/
def rowLoss (x : Fin 8192 → Fin 128 → EReal) (tg : Fin 8192 → BitVec 32) (i : Fin 8192) : EReal :=
  max ((hardPos x tg i - hardNeg x tg i) + Ideal.ofBits .f32 0x3E99999A#32) (Ideal.ofBits .f32 0x00000000#32)

/-- The mean of the rows' losses. -/
def loss (x : Fin 8192 → Fin 128 → EReal) (tg : Fin 8192 → BitVec 32) : EReal :=
  Ideal.div (∑ i : Fin 8192, rowLoss x tg i) (Ideal.ofBits .f32 0x46000000#32)

/-! ## The two results as arrays of the two argument arrays -/

/-- The input array read as a matrix of rows. -/
abbrev mat (X : (⟨2, ![8192, 128]⟩ : Shape).Idx → EReal) : Fin 8192 → Fin 128 → EReal := fun i k => X (ix2 i k)

/-- The label array read as one word per row. -/
abbrev lab (T : (⟨1, ![8192]⟩ : Shape).Idx → BitVec 32) : Fin 8192 → BitVec 32 := fun i => T (ix1 i)

/-- The distance matrix as an array. -/
def distArr (X : (⟨2, ![8192, 128]⟩ : Shape).Idx → EReal) : (⟨2, ![8192, 8192]⟩ : Shape).Idx → EReal :=
  fun i => dist (mat X) (i 0) (i 1)

/-- The loss as a rank-zero array. -/
def lossArr (X : (⟨2, ![8192, 128]⟩ : Shape).Idx → EReal) (T : (⟨1, ![8192]⟩ : Shape).Idx → BitVec 32) :
    (⟨0, ![]⟩ : Shape).Idx → EReal := fun _ => loss (mat X) (lab T)

/-! ## The two infinity words -/

theorem ofBits_negInf : Ideal.ofBits .f32 0xFF800000#32 = ⊥ := by simp [Ideal.ofBits, Ideal.ieee]

theorem ofBits_posInf : Ideal.ofBits .f32 0x7F800000#32 = ⊤ := by simp [Ideal.ofBits, Ideal.ieee]

/-! ## The guarded square root -/

/-- For `m ≥ 0`: "where `m > 0`, the square root of (`m` where `m > 0`, else `w`), else zero" is the square root of `m`,
    whatever the stand-in `w` is — at `m = 0` both are zero. -/
theorem guarded_sqrt (m w : EReal) (hm : Ideal.ofBits .f32 0x00000000#32 ≤ m) :
    Scalar.select (Ideal.cmp .ogt m (Ideal.ofBits .f32 0x00000000#32))
      (Ideal.sqrt (Scalar.select (Ideal.cmp .ogt m (Ideal.ofBits .f32 0x00000000#32)) m w))
      (Ideal.ofBits .f32 0x00000000#32) = Ideal.sqrt m := by
  rw [Ideal.ofBits_zero_f32] at hm ⊢
  by_cases h : (0 : EReal) < m
  · have hc : Ideal.cmp .ogt m 0 = 1#1 := by simp [Ideal.cmp, h]
    rw [hc, select_one, select_one]
  · have hc : Ideal.cmp .ogt m 0 = 0#1 := by simp [Ideal.cmp, h]
    have h0 : m = 0 := le_antisymm (not_lt.mp h) hm
    rw [hc, select_zero, h0]
    show (0 : EReal) = Ideal.sqrt ((0 : ℝ) : EReal)
    rw [Ideal.sqrt_coe, if_neg (lt_irrefl _), Real.sqrt_zero]
    rfl

/-! ## Bounds characterise the extremum -/

/-- A number whose upper bounds are exactly the common upper bounds of a family is the family's least upper bound. -/
theorem eq_iSup_of_le_iff {ι : Type} (f : ι → EReal) (a : EReal) (h : ∀ z, a ≤ z ↔ ∀ j, f j ≤ z) : a = ⨆ j, f j :=
  le_antisymm ((h _).mpr fun j => le_iSup f j) (iSup_le ((h a).mp le_rfl))

/-- A number whose lower bounds are exactly the common lower bounds of a family is the family's greatest lower bound. -/
theorem eq_iInf_of_le_iff {ι : Type} (f : ι → EReal) (a : EReal) (h : ∀ z, z ≤ a ↔ ∀ j, z ≤ f j) : a = ⨅ j, f j :=
  le_antisymm (le_iInf ((h a).mp le_rfl)) ((h _).mpr fun j => iInf_le f j)

/-- A maximum folded over every index from `-inf` is the least upper bound. -/
theorem fold_max_eq_iSup {n : ℕ} (f : Fin n → EReal) (b : EReal) (hb : b = ⊥) :
    (Finset.univ : Finset (Fin n)).fold max b f = ⨆ j, f j :=
  eq_iSup_of_le_iff f _ fun z => by
    rw [Finset.fold_max_le, hb]
    exact ⟨fun h j => h.2 j (Finset.mem_univ j), fun h => ⟨bot_le, fun j _ => h j⟩⟩

/-- A minimum folded over every index from `+inf` is the greatest lower bound. -/
theorem fold_min_eq_iInf {n : ℕ} (f : Fin n → EReal) (b : EReal) (hb : b = ⊤) :
    (Finset.univ : Finset (Fin n)).fold min b f = ⨅ j, f j :=
  eq_iInf_of_le_iff f _ fun z => by
    rw [Finset.le_fold_min, hb]
    exact ⟨fun h j => h.2 j (Finset.mem_univ j), fun h => ⟨le_top, fun j _ => h j⟩⟩

end Cert.Triplet

end
-- ==== Proof.Running.lean ====
/-
  A maximum taken tile after tile.

  The kernel does not see a whole row of the distance matrix at once: it walks the row in eight tiles of 1024 columns, keeping
  the maximum (minimum) so far in a scratch column.  For a family f over the 8192 columns, `runSup f n` is the least upper
  bound of f over the columns before n (and `runInf f n` the greatest lower bound): nothing before column 0, the whole row's
  extremum at 8192, and one more tile's maximum folded in extends it by 1024 columns.
-/
import proofs.«103080_j6536940224733_2_alg».proof.Proof.Spec

noncomputable section

namespace Cert.Triplet

open Idealize.ShloMosaic

/-- Row (or column) p of block b, of 8 blocks of 1024. -/
def row (b : Fin 8) (p : Fin 1024) : Fin 8192 := ⟨1024 * b.val + p.val, by have := b.isLt; have := p.isLt; omega⟩

theorem row_val (b : Fin 8) (p : Fin 1024) : (row b p).val = 1024 * b.val + p.val := rfl

/-- The least upper bound of f over the columns before n. -/
def runSup (f : Fin 8192 → EReal) (n : ℕ) : EReal := ⨆ j : Fin 8192, if j.val < n then f j else ⊥

/-- The greatest lower bound of f over the columns before n. -/
def runInf (f : Fin 8192 → EReal) (n : ℕ) : EReal := ⨅ j : Fin 8192, if j.val < n then f j else ⊤

theorem runSup_le_iff (f : Fin 8192 → EReal) (n : ℕ) (z : EReal) :
    runSup f n ≤ z ↔ ∀ j : Fin 8192, j.val < n → f j ≤ z := by
  unfold runSup
  rw [iSup_le_iff]
  refine forall_congr' fun j => ?_
  by_cases h : j.val < n
  · simp [h]
  · simp [h]

theorem le_runInf_iff (f : Fin 8192 → EReal) (n : ℕ) (z : EReal) :
    z ≤ runInf f n ↔ ∀ j : Fin 8192, j.val < n → z ≤ f j := by
  unfold runInf
  rw [le_iInf_iff]
  refine forall_congr' fun j => ?_
  by_cases h : j.val < n
  · simp [h]
  · simp [h]

/-- Before the first column there is nothing: the bound is `-inf`. -/
theorem runSup_zero (f : Fin 8192 → EReal) : runSup f 0 = ⊥ :=
  le_bot_iff.mp ((runSup_le_iff f 0 ⊥).mpr fun j h => absurd h (Nat.not_lt_zero _))

theorem runInf_zero (f : Fin 8192 → EReal) : runInf f 0 = ⊤ :=
  top_le_iff.mp ((le_runInf_iff f 0 ⊤).mpr fun j h => absurd h (Nat.not_lt_zero _))

/-- Over all 8192 columns it is the row's least upper bound. -/
theorem runSup_all (f : Fin 8192 → EReal) : runSup f 8192 = ⨆ j, f j :=
  eq_iSup_of_le_iff f _ fun z => (runSup_le_iff f 8192 z).trans ⟨fun h j => h j j.isLt, fun h j _ => h j⟩

theorem runInf_all (f : Fin 8192 → EReal) : runInf f 8192 = ⨅ j, f j :=
  eq_iInf_of_le_iff f _ fun z => (le_runInf_iff f 8192 z).trans ⟨fun h j => h j j.isLt, fun h j _ => h j⟩

/-- A column before the end of tile b is before its start or in it. -/
theorem lt_tile_cases (b : Fin 8) (j : Fin 8192) (h : j.val < 1024 * (b.val + 1)) :
    j.val < 1024 * b.val ∨ ∃ q : Fin 1024, j = row b q := by
  by_cases h' : j.val < 1024 * b.val
  · exact Or.inl h'
  · exact Or.inr ⟨⟨j.val - 1024 * b.val, by omega⟩, Fin.ext (by rw [row_val]; show j.val = 1024 * b.val + (j.val - 1024 * b.val); omega)⟩

/-- Folding in tile b's maximum (taken from a start value that is `-inf`) extends the bound by the tile's 1024 columns. -/
theorem runSup_step (f : Fin 8192 → EReal) (b : Fin 8) (w : EReal) (hw : w = ⊥) :
    max (runSup f (1024 * b.val)) ((Finset.univ : Finset (Fin 1024)).fold max w (fun q => f (row b q)))
      = runSup f (1024 * (b.val + 1)) := by
  refine eq_of_forall_ge_iff fun z => ?_
  rw [max_le_iff, runSup_le_iff, runSup_le_iff, Finset.fold_max_le, hw]
  constructor
  · rintro ⟨h1, -, h2⟩ j hj
    rcases lt_tile_cases b j hj with h | ⟨q, rfl⟩
    · exact h1 j h
    · exact h2 q (Finset.mem_univ q)
  · intro h
    refine ⟨fun j hj => h j (by omega), bot_le, fun q _ => h (row b q) ?_⟩
    rw [row_val]; have := q.isLt; omega

/-- Folding in tile b's minimum (taken from a start value that is `+inf`) extends the bound by the tile's 1024 columns. -/
theorem runInf_step (f : Fin 8192 → EReal) (b : Fin 8) (w : EReal) (hw : w = ⊤) :
    min (runInf f (1024 * b.val)) ((Finset.univ : Finset (Fin 1024)).fold min w (fun q => f (row b q)))
      = runInf f (1024 * (b.val + 1)) := by
  refine eq_of_forall_le_iff fun z => ?_
  rw [le_min_iff, le_runInf_iff, le_runInf_iff, Finset.le_fold_min, hw]
  constructor
  · rintro ⟨h1, -, h2⟩ j hj
    rcases lt_tile_cases b j hj with h | ⟨q, rfl⟩
    · exact h1 j h
    · exact h2 q (Finset.mem_univ q)
  · intro h
    refine ⟨fun j hj => h j (by omega), le_top, fun q _ => h (row b q) ?_⟩
    rw [row_val]; have := q.isLt; omega

end Cert.Triplet

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.Blocks.lean ====
/-
  What the kernel's windows hold at a grid point.

  The region is entered after the host has transposed x, recast the labels as a column and as a row, and summed the squares
  of each row of x, recast likewise.  Point t of the 8 x 8 grid is row block t / 8 and column block t % 8; there the six input
  windows hold: rows of x, columns of the transpose (so again rows of x, read across), the labels of the row block and of the
  column block, and the squared norms of the row block and of the column block.
-/
import proofs.«103080_j6536940224733_2_alg».proof.Proof.Gen.KernelIdeal.Frame
import proofs.«103080_j6536940224733_2_alg».proof.Proof.Spec
import proofs.«103080_j6536940224733_2_alg».proof.Proof.Running
import proofs.«103080_j6536940224733_2_alg».proof.Proof.LibKeepdims
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem

namespace Cert.Triplet.Blocks

open Cert.KernelIdeal Cert.KernelIdeal.Gen Idealize.ShloMosaic.ValueIdx Cert.Triplet
open scoped BigOperators

variable (m : (ℓ : Loc nD τ sig) → Buf (Elt Ideal) ℓ) (c : Dev nD)

/-- The two argument arrays as launched. -/
abbrev X : S8192x128.Idx → EReal := m ((c : Thread nD τ).loc main_arg0)
abbrev T : S8192.Idx → BitVec 32 := m ((c : Thread nD τ).loc main_arg1)

/-! ## The arrays the host wrote before the region -/

theorem V_arg0 : (V m c main_arg0 : S8192x128.Idx → EReal) = X m c := V_main_arg0 m c

theorem V_v0 : (V m c main_v0 : S128x8192.Idx → EReal)
    = transpose S128x8192 [1, 0] (X m c) Facts₀.transposes_S8192x128_S128x8192_1_0 := by
  show StableHlo.after hostOps0 (fun b => m (c, b)) (Proc.devRef .tc main_v0) = _
  after_results

theorem V_v1 : (V m c main_v1 : S8192x1.Idx → BitVec 32) = shapeCast S8192x1 (T m c) Facts₀.shapeCasts_S8192_S8192x1 := by
  show StableHlo.after hostOps0 (fun b => m (c, b)) (Proc.devRef .tc main_v1) = _
  after_results
  rfl

theorem V_v2 : (V m c main_v2 : S1x8192.Idx → BitVec 32) = shapeCast S1x8192 (T m c) Facts₀.shapeCasts_S8192_S1x8192 := by
  show StableHlo.after hostOps0 (fun b => m (c, b)) (Proc.devRef .tc main_v2) = _
  after_results
  rfl

/-- The squared norms as the host sums them. -/
def hostSq : S8192.Idx → EReal :=
  Host.reduceAdd (F := Ideal) (mulf (X m c) (X m c)) (constant (F := Ideal) S_ .f32 0x00000000#32)
    Facts₀.reducesTo_S8192x128_S8192_d1 Facts₀.h_S_

theorem V_v5 : (V m c main_v5 : S8192x1.Idx → EReal) = shapeCast S8192x1 (hostSq m c) Facts₀.shapeCasts_S8192_S8192x1 := by
  show StableHlo.after hostOps0 (fun b => m (c, b)) (Proc.devRef .tc main_v5) = _
  after_results
  rfl

theorem V_v6 : (V m c main_v6 : S1x8192.Idx → EReal) = shapeCast S1x8192 (hostSq m c) Facts₀.shapeCasts_S8192_S1x8192 := by
  show StableHlo.after hostOps0 (fun b => m (c, b)) (Proc.devRef .tc main_v6) = _
  after_results
  rfl

/-- The host's sum of squares of row i is the specification's. -/
theorem hostSq_apply (i : Fin 8192) : hostSq m c (ix1 i) = sq (mat (X m c)) i := by
  unfold hostSq
  simp only [Host.reduceAdd, Ideal.hostReduceAdd_def]
  rw [Ideal.hostReduceAdd_single Facts₀.reducesTo_S8192x128_S8192_d1 (by decide)]
  unfold sq
  refine congrArg₂ (· + ·) rfl (Finset.sum_congr rfl fun k _ => ?_)
  have e : (Shape.Reduces.lift (by decide : S8192x128.Reduces [1] S8192) (ix1 i) k) = ix2 i k :=
    funext fun a => Fin.ext (by match a with | ⟨0, _⟩ => rfl | ⟨1, _⟩ => rfl)
  rw [e]
  rfl

/-! ## The grid's points -/

theorem hN : cfg0.N = 64 := N_0

/-- The row block and the column block of a point. -/
def rN (n : ℕ) (h : n < cfg0.N) : Fin 8 := ⟨n / 8, by have := hN; omega⟩
def cN (n : ℕ) : Fin 8 := ⟨n % 8, Nat.mod_lt _ (by decide)⟩

/-- The printed index maps, decided over the grid. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = 0 ∧ win0_5.index t (1 : Fin 2) = t.val % 8
    ∧ win0_6.index t (0 : Fin 2) = t.val / 8 ∧ win0_6.index t (1 : Fin 2) = t.val % 8
    ∧ win0_7.index t (0 : Fin 2) = t.val / 8 ∧ win0_7.index t (1 : Fin 2) = 0 :=
  (by decide +kernel : ∀ t : Fin grid0.N, _)

/-! ## The six input blocks at a point -/

variable (t : Fin cfg0.N)

/-- Rows of x. -/
theorem blk_xr (p : Fin 1024) (k : Fin 128) :
    (iblk m c 0 t : S1024x128.Idx → EReal) (ix2 p k) = mat (X m c) (row (rN t.val t.isLt) p) k := by
  unfold iblk
  rw [View.read_apply]
  show V m c main_arg0 _ = X m c (ix2 (row (rN t.val t.isLt) p) k)
  rw [V_arg0]
  refine congrArg (X m c) (funext fun a => Fin.ext ?_)
  obtain ⟨e0, e1, -⟩ := idx_facts t
  match a with
  | ⟨0, _⟩ => show win0_0.index t (0 : Fin 2) * 1024 + 1 * p.val = 1024 * (t.val / 8) + p.val; rw [e0]; omega
  | ⟨1, _⟩ => show win0_0.index t (1 : Fin 2) * 128 + 1 * k.val = k.val; rw [e1]; omega

/-- Columns of the transpose: rows of x again. -/
theorem blk_xc (k : Fin 128) (q : Fin 1024) :
    (iblk m c 1 t : S128x1024.Idx → EReal) (ix2 k q) = mat (X m c) (row (cN t.val) q) k := by
  unfold iblk
  rw [View.read_apply]
  show V m c main_v0 _ = X m c (ix2 (row (cN t.val) q) k)
  rw [V_v0, ← transpose_ix2_apply (X m c) Facts₀.transposes_S8192x128_S128x8192_1_0 k (row (cN t.val) q)]
  refine congrArg (transpose S128x8192 [1, 0] (X m c) _) (funext fun a => Fin.ext ?_)
  obtain ⟨-, -, e0, e1, -⟩ := idx_facts t
  match a with
  | ⟨0, _⟩ => show win0_1.index t (0 : Fin 2) * 128 + 1 * k.val = k.val; rw [e0]; omega
  | ⟨1, _⟩ => show win0_1.index t (1 : Fin 2) * 1024 + 1 * q.val = 1024 * (t.val % 8) + q.val; rw [e1]; omega

/-- The labels of the row block. -/
theorem blk_tr (p : Fin 1024) :
    (iblk m c 2 t : S1024x1.Idx → BitVec 32) (ix2 p (0 : Fin 1)) = lab (T m c) (row (rN t.val t.isLt) p) := by
  unfold iblk
  rw [View.read_apply]
  show V m c main_v1 _ = T m c (ix1 (row (rN t.val t.isLt) p))
  rw [V_v1, ← Cert.Lib.shapeCast_a_a1_apply (T m c) Facts₀.shapeCasts_S8192_S8192x1 (row (rN t.val t.isLt) p) (0 : Fin 1)]
  refine congrArg (shapeCast S8192x1 (T m c) _) (funext fun a => Fin.ext ?_)
  obtain ⟨-, -, -, -, e0, e1, -⟩ := idx_facts t
  match a with
  | ⟨0, _⟩ => show win0_2.index t (0 : Fin 2) * 1024 + 1 * p.val = 1024 * (t.val / 8) + p.val; rw [e0]; omega
  | ⟨1, _⟩ => show win0_2.index t (1 : Fin 2) * 1 + 1 * 0 = 0; rw [e1]

/-- The labels of the column block. -/
theorem blk_tc (q : Fin 1024) :
    (iblk m c 3 t : S1x1024.Idx → BitVec 32) (ix2 (0 : Fin 1) q) = lab (T m c) (row (cN t.val) q) := by
  unfold iblk
  rw [View.read_apply]
  show V m c main_v2 _ = T m c (ix1 (row (cN t.val) q))
  rw [V_v2, ← shapeCast_a_1a_apply (T m c) Facts₀.shapeCasts_S8192_S1x8192 (0 : Fin 1) (row (cN t.val) q)]
  refine congrArg (shapeCast S1x8192 (T m c) _) (funext fun a => Fin.ext ?_)
  obtain ⟨-, -, -, -, -, -, e0, e1, -⟩ := idx_facts t
  match a with
  | ⟨0, _⟩ => show win0_3.index t (0 : Fin 2) * 1 + 1 * 0 = 0; rw [e0]
  | ⟨1, _⟩ => show win0_3.index t (1 : Fin 2) * 1024 + 1 * q.val = 1024 * (t.val % 8) + q.val; rw [e1]; omega

/-- The squared norms of the row block. -/
theorem blk_sr (p : Fin 1024) :
    (iblk m c 4 t : S1024x1.Idx → EReal) (ix2 p (0 : Fin 1)) = sq (mat (X m c)) (row (rN t.val t.isLt) p) := by
  unfold iblk
  rw [View.read_apply]
  show V m c main_v5 _ = _
  rw [V_v5, ← hostSq_apply, ← Cert.Lib.shapeCast_a_a1_apply (hostSq m c) Facts₀.shapeCasts_S8192_S8192x1 (row (rN t.val t.isLt) p) (0 : Fin 1)]
  refine congrArg (shapeCast S8192x1 (hostSq m c) _) (funext fun a => Fin.ext ?_)
  obtain ⟨-, -, -, -, -, -, -, -, e0, e1, -⟩ := idx_facts t
  match a with
  | ⟨0, _⟩ => show win0_4.index t (0 : Fin 2) * 1024 + 1 * p.val = 1024 * (t.val / 8) + p.val; rw [e0]; omega
  | ⟨1, _⟩ => show win0_4.index t (1 : Fin 2) * 1 + 1 * 0 = 0; rw [e1]

/-- The squared norms of the column block. -/
theorem blk_sc (q : Fin 1024) :
    (iblk m c 5 t : S1x1024.Idx → EReal) (ix2 (0 : Fin 1) q) = sq (mat (X m c)) (row (cN t.val) q) := by
  unfold iblk
  rw [View.read_apply]
  show V m c main_v6 _ = _
  rw [V_v6, ← hostSq_apply, ← shapeCast_a_1a_apply (hostSq m c) Facts₀.shapeCasts_S8192_S1x8192 (0 : Fin 1) (row (cN t.val) q)]
  refine congrArg (shapeCast S1x8192 (hostSq m c) _) (funext fun a => Fin.ext ?_)
  obtain ⟨-, -, -, -, -, -, -, -, -, -, e0, e1, -⟩ := idx_facts t
  match a with
  | ⟨0, _⟩ => show win0_5.index t (0 : Fin 2) * 1 + 1 * 0 = 0; rw [e0]
  | ⟨1, _⟩ => show win0_5.index t (1 : Fin 2) * 1024 + 1 * q.val = 1024 * (t.val % 8) + q.val; rw [e1]; omega

end Cert.Triplet.Blocks

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.Tile.lean ====
/-
  What the kernel body computes on one tile, entry by entry, at the ideal values.

  At a grid point the body holds a block of 1024 rows of x (`xr`), a block of 1024 columns of the transpose of x (`xc`), the
  labels of those rows as a column (`tr`) and of those columns as a row (`tc`), and the squared norms likewise (`sr`, `sc`).
    * the distance tile at (p, q) is sqrt (max ((sr p + sc q) - 2 * sum_k xr(p,k) * xc(k,q)) 0);
    * the mask at (p, q) says whether the labels of row p and column q are the same word;
    * the tile's row maximum at p is the maximum over q, from -inf, of (distance where the mask holds, the "neg_big" fill
      elsewhere); the fill is -inf at the ideal instance;
    * the tile's candidates for the minimum are ("pos_big" = +inf where the mask holds, the distance elsewhere);
    * the running maximum (minimum) a scratch column carries is combined with the tile's by max (min);
    * the row loss is max ((running max - running min) + margin) 0.
-/
import proofs.«103080_j6536940224733_2_alg».proof.Proof.Gen.KernelIdeal.Skeleton
import proofs.«103080_j6536940224733_2_alg».proof.Proof.LibMatmul2
import proofs.«103080_j6536940224733_2_alg».proof.Proof.LibKeepdims
import proofs.«103080_j6536940224733_2_alg».proof.Proof.Spec
import proofs.«103080_j6536940224733_2_alg».proof.Proof.Running
import Idealize.ShloMosaic.Lib.Pipeline.Value
import Idealize.ShloMosaic.Lib.ValueIdx
import Idealize.ShloMosaic.Lib.ValueLayout
import Idealize.ShloMosaic.PureOps.Ideal.Laws

noncomputable section

namespace Cert.Triplet.Tile

open Idealize.ShloMosaic Idealize.ShloMosaic.ValueIdx Cert.KernelIdeal Cert.KernelIdeal.Gen
open scoped BigOperators

variable (xr : FVec Ideal S1024x128 .f32) (xc : FVec Ideal S128x1024 .f32) (tr : IVec S1024x1 32) (tc : IVec S1x1024 32)
  (sr : FVec Ideal S1024x1 .f32) (sc : FVec Ideal S1x1024 .f32)

/-- The distance tile at (p, q). -/
def tdist (p q : Fin 1024) : EReal :=
  Ideal.sqrt (max ((sr (ix2 p (0 : Fin 1)) + sc (ix2 (0 : Fin 1) q))
      - Ideal.ofBits .f32 0x40000000#32 * ∑ k : Fin 128, xr (ix2 p k) * xc (ix2 k q)) (Ideal.ofBits .f32 0x00000000#32))

/-- The mask at (p, q): the labels of row p and of column q are one word. -/
def tmask (p q : Fin 1024) : BitVec 1 := IntOp.cmpi .eq (tr (ix2 p (0 : Fin 1))) (tc (ix2 (0 : Fin 1) q))

/-- The tile's matrix product into the zero accumulator, at (p, q). -/
theorem tile_matmul (p q : Fin 1024) :
    matmul dot_S1024x128_S128x1024_S1024x1024_1_0_0_1_n_n (some .fp32) xr xc (constant (F := Ideal) S1024x1024 .f32 0x00000000#32) (ix2 p q)
      = ∑ k : Fin 128, xr (ix2 p k) * xc (ix2 k q) :=
  Cert.Lib.matmul2_zero_apply (A := 1024) (K := 128) (B := 1024) Facts₀.dot_S1024x128_S128x1024_S1024x1024_1_0_0_1_n_n_wf xr xc p q

/-- The stored distance tile, entry by entry. -/
theorem pay6_apply (p q : Fin 1024) : k0_pay6 (F := Ideal) xr xc sr sc (ix2 p q) = tdist xr xc sr sc p q := by
  unfold k0_pay6 tdist
  simp only [shapeCast_self]
  show Ideal.sqrt (max ((broadcastTo S1024x1024 sr _ (ix2 p q) + broadcastTo S1024x1024 sc _ (ix2 p q))
      - Ideal.ofBits .f32 0x40000000#32 * matmul dot_S1024x128_S128x1024_S1024x1024_1_0_0_1_n_n (some .fp32) xr xc
          (constant (F := Ideal) S1024x1024 .f32 0x00000000#32) (ix2 p q)) (Ideal.ofBits .f32 0x00000000#32)) = _
  rw [Cert.Lib.broadcastTo_a1_ab_apply, broadcastTo_1b_ab_apply, tile_matmul]

/-- The mask, entry by entry. -/
theorem pay7_apply (p q : Fin 1024) : k0_pay7 (F := Ideal) tr tc (ix2 p q) = tmask tr tc p q := by
  unfold k0_pay7 tmask
  simp only [shapeCast_self]
  show IntOp.cmpi .eq (broadcastTo S1024x1024 tr _ (ix2 p q)) (broadcastTo S1024x1024 tc _ (ix2 p q)) = _
  rw [Cert.Lib.broadcastTo_a1_ab_apply, broadcastTo_1b_ab_apply]

/-- The "neg_big" fill is `-inf` and the "pos_big" fill `+inf` at the ideal instance. -/
theorem neg_big : Named.named (F := Ideal) κ "neg_big" (φ := .f32) 0xFF333332#32 = (⊥ : EReal) := rfl
theorem pos_big : Named.named (F := Ideal) κ "pos_big" (φ := .f32) 0x7F333332#32 = (⊤ : EReal) := rfl

/-- What row p of the tile offers as a positive at column q. -/
def tpos (p q : Fin 1024) : EReal := Scalar.select (tmask tr tc p q) (tdist xr xc sr sc p q) ⊥
/-- What row p of the tile offers as a negative at column q. -/
def tneg (p q : Fin 1024) : EReal := Scalar.select (tmask tr tc p q) ⊤ (tdist xr xc sr sc p q)

/-- The candidates for the minimum, entry by entry. -/
theorem pay9_apply (p q : Fin 1024) : k0_pay9 (F := Ideal) xr xc sr sc tr tc (ix2 p q) = tneg xr xc tr tc sr sc p q := by
  unfold k0_pay9 tneg
  show Scalar.select (k0_pay7 (F := Ideal) tr tc (ix2 p q)) (Named.named (F := Ideal) κ "pos_big" (φ := .f32) 0x7F333332#32)
    (k0_pay6 (F := Ideal) xr xc sr sc (ix2 p q)) = _
  rw [pay7_apply, pay6_apply, pos_big]

/-- The tile's positives as a matrix: the distance where the mask holds, the fill elsewhere. -/
def posTile : FVec Ideal S1024x1024 .f32 :=
  select (k0_pay7 (F := Ideal) tr tc) (k0_pay6 (F := Ideal) xr xc sr sc)
    (broadcast S1024x1024 (Named.named (F := Ideal) κ "neg_big" (φ := .f32) 0xFF333332#32))

theorem posTile_apply (p q : Fin 1024) : posTile xr xc tr tc sr sc (ix2 p q) = tpos xr xc tr tc sr sc p q := by
  show Scalar.select (k0_pay7 (F := Ideal) tr tc (ix2 p q)) (k0_pay6 (F := Ideal) xr xc sr sc (ix2 p q))
    (Named.named (F := Ideal) κ "neg_big" (φ := .f32) 0xFF333332#32) = _
  rw [pay7_apply, pay6_apply, neg_big]
  rfl

/-- A row maximum kept as a column, read at (p, 0). -/
theorem rowMax_col {a n : ℕ} (src : FVec Ideal ⟨2, ![a, n]⟩ .f32) (h : (⟨2, ![a, n]⟩ : Shape).Reduces [1] ⟨1, ![a]⟩)
    (h2 : (⟨1, ![a]⟩ : Shape).ShapeCasts ⟨2, ![a, 1]⟩) (p : Fin a) (u : Fin 1) :
    shapeCast ⟨2, ![a, 1]⟩ (multiReduction (F := Ideal) .maximumf [1] ⟨1, ![a]⟩ src 0xFF800000#32 h (.inl rfl) rfl) h2 (ix2 p u)
      = (Finset.univ : Finset (Fin n)).fold max (Ideal.ofBits .f32 0xFF800000#32) (fun k => src (ix2 p k)) :=
  (Cert.Lib.shapeCast_a_a1_apply _ h2 p u).trans (Cert.Lib.rowMax_apply src _ h _ _ p)

/-- The row-maximum payload is the row maximum of the positives, kept as a column. -/
theorem pay8_eq : k0_pay8 (F := Ideal) xr xc sr sc tr tc
    = shapeCast S1024x1 (multiReduction (F := Ideal) .maximumf [1] S1024 (posTile xr xc tr tc sr sc) 0xFF800000#32
        Facts₀.reduces_S1024x1024_S1024 (.inl rfl) rfl) Facts₀.shapeCasts_S1024_S1024x1 := rfl

/-- The tile's row maximum, as a column: at (p, 0) the maximum over the tile's columns of row p's positives, from `-inf`. -/
theorem pay8_apply (p : Fin 1024) (u : Fin 1) : k0_pay8 (F := Ideal) xr xc sr sc tr tc (ix2 p u)
    = (Finset.univ : Finset (Fin 1024)).fold max (Ideal.ofBits .f32 0xFF800000#32) (fun q => tpos xr xc tr tc sr sc p q) := by
  rw [pay8_eq]
  refine (rowMax_col (posTile xr xc tr tc sr sc) Facts₀.reduces_S1024x1024_S1024 Facts₀.shapeCasts_S1024_S1024x1 p u).trans ?_
  exact congrArg (Finset.fold max _ · _) (funext fun q => posTile_apply xr xc tr tc sr sc p q)

/-- A minimum over the last axis of an [a, n] matrix, read at row p: the fold of `min` over the row's entries from the
    accumulator's value. -/
theorem rowMin_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin n)).fold min (Ideal.ofBits φ acc) (fun k => src (ix2 p k)) := by
  refine (multiReduction_minimumf_eq_fold src acc h hφ hacc (ix1 p)).trans ?_
  refine (h.fold_filter_drop_single _ _ src (ix1 p)).trans ?_
  have hg : (src ∘ h.lift (ix1 p)) = fun k => src (ix2 p k) := funext fun k => congrArg src (Cert.Lib.lift_row h p k)
  rw [hg]
  rfl

/-- The running maximum after this tile: the maximum of what the scratch column held and the tile's row maximum. -/
theorem pay1_apply (v31 : FVec Ideal S1024x1 .f32) (v36 : FVec Ideal S1024x1 .f32) (j : S1024x1.Idx) :
    k0_pay1 (F := Ideal) v31 v36 j = max (v36 j) (v31 j) := by
  unfold k0_pay1
  simp only [shapeCast_self]
  rfl

/-- The running minimum after this tile: the minimum of what the scratch column held and, over the tile's columns from
    `+inf`, of the candidates of row p. -/
theorem pay2_apply (v33 : FVec Ideal S1024x1024 .f32) (v41 : FVec Ideal S1024x1 .f32) (p : Fin 1024) (u : Fin 1) :
    k0_pay2 (F := Ideal) v33 v41 (ix2 p u)
      = min (v41 (ix2 p u)) ((Finset.univ : Finset (Fin 1024)).fold min (Ideal.ofBits .f32 0x7F800000#32) (fun q => v33 (ix2 p q))) := by
  have key : k0_pay2 (F := Ideal) v33 v41 = minimumf v41 (shapeCast S1024x1 (multiReduction (F := Ideal) .minimumf [1] S1024 v33 0x7F800000#32
      Facts₀.reduces_S1024x1024_S1024 (.inl rfl) rfl) Facts₀.shapeCasts_S1024_S1024x1) := by
    unfold k0_pay2
    simp only [shapeCast_self]
  rw [key]
  show min (v41 (ix2 p u)) _ = _
  refine congrArg (min _) ?_
  exact (Cert.Lib.shapeCast_a_a1_apply _ Facts₀.shapeCasts_S1024_S1024x1 p u).trans
    (rowMin_apply v33 0x7F800000#32 Facts₀.reduces_S1024x1024_S1024 (.inl rfl) rfl p)

/-- The row loss from the two running extrema. -/
theorem pay3_apply (v49 v50 : FVec Ideal S1024x1 .f32) (j : S1024x1.Idx) :
    k0_pay3 (F := Ideal) v49 v50 j
      = max ((v49 j - v50 j) + Ideal.ofBits .f32 0x3E99999A#32) (Ideal.ofBits .f32 0x00000000#32) := by
  unfold k0_pay3
  rfl

/-- The first point of a row of tiles stores `-inf` in the running maximum and `+inf` in the running minimum. -/
theorem pay4_apply (j : S1024x1.Idx) : k0_pay4 (F := Ideal) j = (⊥ : EReal) := by
  unfold k0_pay4
  simp only [shapeCast_self]
  rfl
theorem pay5_apply (j : S1024x1.Idx) : k0_pay5 (F := Ideal) j = (⊤ : EReal) := by
  unfold k0_pay5
  simp only [shapeCast_self]
  rfl

/-! ## The tile against the specification

  When the blocks are the blocks of x, of its squared norms and of the labels at row block `br` and column block `bc`, the
  tile's entries are the specification's at rows `row br p` and columns `row bc q`. -/

section Against

variable (x : Fin 8192 → Fin 128 → EReal) (tg : Fin 8192 → BitVec 32) (br bc : Fin 8)
  (hxr : ∀ p k, xr (ix2 p k) = x (row br p) k) (hxc : ∀ k q, xc (ix2 k q) = x (row bc q) k)
  (hsr : ∀ p, sr (ix2 p (0 : Fin 1)) = sq x (row br p)) (hsc : ∀ q, sc (ix2 (0 : Fin 1) q) = sq x (row bc q))
  (htr : ∀ p, tr (ix2 p (0 : Fin 1)) = tg (row br p)) (htc : ∀ q, tc (ix2 (0 : Fin 1) q) = tg (row bc q))

include hxr hxc hsr hsc in
theorem tdist_eq (p q : Fin 1024) : tdist xr xc sr sc p q = dist x (row br p) (row bc q) := by
  unfold tdist dist sqd cross
  rw [hsr, hsc]
  refine congrArg Ideal.sqrt (congrArg (max · _) (congrArg (_ - _ * ·) (Finset.sum_congr rfl fun k _ => ?_)))
  rw [hxr, hxc]

include htr htc in
theorem tmask_eq (p q : Fin 1024) : tmask tr tc p q = IntOp.cmpi .eq (tg (row br p)) (tg (row bc q)) := by
  unfold tmask
  rw [htr, htc]

include hxr hxc hsr hsc htr htc in
theorem tpos_eq (p q : Fin 1024) : tpos xr xc tr tc sr sc p q = pos x tg (row br p) (row bc q) := by
  unfold tpos pos
  rw [tdist_eq xr xc sr sc x br bc hxr hxc hsr hsc, tmask_eq tr tc tg br bc htr htc]

include hxr hxc hsr hsc htr htc in
theorem tneg_eq (p q : Fin 1024) : tneg xr xc tr tc sr sc p q = neg x tg (row br p) (row bc q) := by
  unfold tneg neg
  rw [tdist_eq xr xc sr sc x br bc hxr hxc hsr hsc, tmask_eq tr tc tg br bc htr htc]

include hxr hxc hsr hsc in
/-- The stored distance tile is the block (br, bc) of the distance matrix. -/
theorem dist_tile (y : S1024x1024.Idx) : k0_pay6 (F := Ideal) xr xc sr sc y = dist x (row br (y 0)) (row bc (y 1)) := by
  obtain ⟨p, q, rfl⟩ : ∃ (p q : Fin 1024), y = ix2 p q := ⟨y 0, y 1, eq_ix2 y⟩
  rw [pay6_apply]
  exact tdist_eq xr xc sr sc x br bc hxr hxc hsr hsc p q

include hxr hxc hsr hsc htr htc in
/-- One tile more: a scratch column holding each row's least upper bound over the columns before tile `bc` holds, after
    the body, the bound over the columns up to the tile's end. -/
theorem max_step (old : FVec Ideal S1024x1 .f32)
    (hold : ∀ y : S1024x1.Idx, old y = runSup (pos x tg (row br (y 0))) (1024 * bc.val)) (y : S1024x1.Idx) :
    k0_pay1 (F := Ideal) (k0_pay8 (F := Ideal) xr xc sr sc tr tc) old y
      = runSup (pos x tg (row br (y 0))) (1024 * (bc.val + 1)) := by
  obtain ⟨p, u, rfl⟩ : ∃ (p : Fin 1024) (u : Fin 1), y = ix2 p u := ⟨y 0, y 1, eq_ix2 y⟩
  rw [pay1_apply, pay8_apply, hold]
  have e : (fun q => tpos xr xc tr tc sr sc p q) = fun q => pos x tg (row br p) (row bc q) :=
    funext fun q => tpos_eq xr xc tr tc sr sc x tg br bc hxr hxc hsr hsc htr htc p q
  rw [e]
  exact runSup_step (pos x tg (row br p)) bc _ ofBits_negInf

include hxr hxc hsr hsc htr htc in
/-- The same for the greatest lower bound. -/
theorem min_step (old : FVec Ideal S1024x1 .f32)
    (hold : ∀ y : S1024x1.Idx, old y = runInf (neg x tg (row br (y 0))) (1024 * bc.val)) (y : S1024x1.Idx) :
    k0_pay2 (F := Ideal) (k0_pay9 (F := Ideal) xr xc sr sc tr tc) old y
      = runInf (neg x tg (row br (y 0))) (1024 * (bc.val + 1)) := by
  obtain ⟨p, u, rfl⟩ : ∃ (p : Fin 1024) (u : Fin 1), y = ix2 p u := ⟨y 0, y 1, eq_ix2 y⟩
  rw [pay2_apply, hold]
  have e : (fun q => k0_pay9 (F := Ideal) xr xc sr sc tr tc (ix2 p q)) = fun q => neg x tg (row br p) (row bc q) :=
    funext fun q => (pay9_apply xr xc tr tc sr sc p q).trans (tneg_eq xr xc tr tc sr sc x tg br bc hxr hxc hsr hsc htr htc p q)
  rw [e]
  exact runInf_step (neg x tg (row br p)) bc _ ofBits_posInf

end Against

/-- The reset values: nothing before the first column. -/
theorem reset_max (f : Fin 1024 → Fin 8192 → EReal) (y : S1024x1.Idx) : k0_pay4 (F := Ideal) y = runSup (f (y 0)) (1024 * 0) := by
  rw [pay4_apply, Nat.mul_zero, runSup_zero]
theorem reset_min (f : Fin 1024 → Fin 8192 → EReal) (y : S1024x1.Idx) : k0_pay5 (F := Ideal) y = runInf (f (y 0)) (1024 * 0) := by
  rw [pay5_apply, Nat.mul_zero, runInf_zero]

/-- After the eighth tile the two scratch columns hold the hardest positive and negative, and the stored loss is the row's. -/
theorem loss_col (x : Fin 8192 → Fin 128 → EReal) (tg : Fin 8192 → BitVec 32) (br : Fin 8) (smax smin : FVec Ideal S1024x1 .f32)
    (hmax : ∀ y : S1024x1.Idx, smax y = runSup (pos x tg (row br (y 0))) (1024 * (7 + 1)))
    (hmin : ∀ y : S1024x1.Idx, smin y = runInf (neg x tg (row br (y 0))) (1024 * (7 + 1))) (y : S1024x1.Idx) :
    k0_pay3 (F := Ideal) smax smin y = rowLoss x tg (row br (y 0)) := by
  rw [pay3_apply, hmax, hmin]
  show max ((runSup _ 8192 - runInf _ 8192) + _) _ = _
  rw [runSup_all, runInf_all]
  rfl

end Cert.Triplet.Tile

end
-- ==== Proof.Points.lean ====
/-
  The kernel's two output arrays after the run.

  Point by point (row block r = t / 8, column block cb = t % 8): the distance window's buffer holds block (r, cb) of the
  distance matrix; the two scratch columns hold, for each row of the row block, the least upper bound of its positives and the
  greatest lower bound of its negatives over the columns up to the end of column block cb — by induction on the point,
  restarting at each first column block —; and at the last column block the loss window's buffer holds the row losses of
  the row block.  Every block of either output array is written back by exactly the points that compute it, the blocks tile
  the arrays, and so the distance array ends as the whole distance matrix and the loss column as every row's loss.
-/
import proofs.«103080_j6536940224733_2_alg».proof.Proof.Pieces
import proofs.«103080_j6536940224733_2_alg».proof.Proof.Blocks
import proofs.«103080_j6536940224733_2_alg».proof.Proof.Tile

noncomputable section

open Idealize.ShloMosaic Idealize.ShloMosaic.TcCoe Idealize.SL.Sem
open Idealize.ShloMosaic.Pipeline (Dat)

namespace Cert.Triplet.Points

open Cert.KernelIdeal Cert.KernelIdeal.Gen Idealize.ShloMosaic.ValueIdx Cert.Triplet Cert.Triplet.Blocks Cert.Triplet.Pieces

variable (m : (ℓ : Loc nD τ sig) → Buf (Elt Ideal) ℓ) (c : Dev nD)

/-- The running maximum column after point n. -/
def smaxAt (n : ℕ) (h : n < cfg0.N) : Vec Ideal S1024x1 .f32 :=
  fun y => runSup (pos (mat (X m c)) (lab (T m c)) (row (rN n h) (y 0))) (1024 * ((cN n).val + 1))

/-- The running minimum column after point n. -/
def sminAt (n : ℕ) (h : n < cfg0.N) : Vec Ideal S1024x1 .f32 :=
  fun y => runInf (neg (mat (X m c)) (lab (T m c)) (row (rN n h) (y 0))) (1024 * ((cN n).val + 1))

/-- One step of the two scratch columns at point t, whatever they held before, provided it was the bounds over the columns
    before column block `t % 8`. -/
theorem step (t : Fin cfg0.N) (old0 old1 : Vec Ideal S1024x1 .f32)
    (h0 : ∀ y : S1024x1.Idx, old0 y = runSup (pos (mat (X m c)) (lab (T m c)) (row (rN t.val t.isLt) (y 0))) (1024 * (cN t.val).val))
    (h1 : ∀ y : S1024x1.Idx, old1 y = runInf (neg (mat (X m c)) (lab (T m c)) (row (rN t.val t.isLt) (y 0))) (1024 * (cN t.val).val)) :
    k0_pay1 (F := Ideal) (k0_pay8 (F := Ideal) (iblk m c 0 t) (iblk m c 1 t) (iblk m c 4 t) (iblk m c 5 t) (iblk m c 2 t) (iblk m c 3 t)) old0 = smaxAt m c t.val t.isLt
    ∧ k0_pay2 (F := Ideal) (k0_pay9 (F := Ideal) (iblk m c 0 t) (iblk m c 1 t) (iblk m c 4 t) (iblk m c 5 t) (iblk m c 2 t) (iblk m c 3 t)) old1 = sminAt m c t.val t.isLt :=
  ⟨funext fun y => Tile.max_step (iblk m c 0 t) (iblk m c 1 t) (iblk m c 2 t) (iblk m c 3 t) (iblk m c 4 t) (iblk m c 5 t) (mat (X m c)) (lab (T m c)) (rN t.val t.isLt) (cN t.val) (blk_xr m c t) (blk_xc m c t) (blk_sr m c t) (blk_sc m c t) (blk_tr m c t) (blk_tc m c t) old0 h0 y,
   funext fun y => Tile.min_step (iblk m c 0 t) (iblk m c 1 t) (iblk m c 2 t) (iblk m c 3 t) (iblk m c 4 t) (iblk m c 5 t) (mat (X m c)) (lab (T m c)) (rN t.val t.isLt) (cN t.val) (blk_xr m c t) (blk_xc m c t) (blk_sr m c t) (blk_sc m c t) (blk_tr m c t) (blk_tc m c t) old1 h1 y⟩

/-- THE INDUCTION: after every point the two scratch columns hold the running bounds. -/
theorem scratch_eq : ∀ (n : ℕ) (h : n < cfg0.N),
    (outsAt0 m c n h).2.2.1 = smaxAt m c n h ∧ (outsAt0 m c n h).2.2.2 = sminAt m c n h
  | 0, h => by
    have h0 : (⟨0, h⟩ : Fin cfg0.N).val % 8 = 0 := rfl
    have h1 : ¬(⟨0, h⟩ : Fin cfg0.N).val % 8 = 7 := fun hq => absurd hq (by decide : ¬(0 % 8 = 7))
    rw [outsAt0_A m c ⟨0, h⟩ h0 h1]
    dsimp only
    rw [smax_A (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) scM0_1 (Memref.isWhole_whole _) ((hcond0_0 (⟨0, h⟩ : Fin cfg0.N)).mpr h0) (fun hq => h1 ((hcond0_1 (⟨0, h⟩ : Fin cfg0.N)).mp hq)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)), smin_A (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) scM0_0 (Memref.isWhole_whole _) scM0_1 (Memref.isWhole_whole _) ((hcond0_0 (⟨0, h⟩ : Fin cfg0.N)).mpr h0) (fun hq => h1 ((hcond0_1 (⟨0, h⟩ : Fin cfg0.N)).mp hq)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N))]
    exact step m c ⟨0, h⟩ _ _ (fun y => Tile.reset_max (fun p => pos (mat (X m c)) (lab (T m c)) (row (rN 0 h) p)) y)
      (fun y => Tile.reset_min (fun p => neg (mat (X m c)) (lab (T m c)) (row (rN 0 h) p)) y)
  | n + 1, h => by
    have ih := scratch_eq n (Nat.lt_of_succ_lt h)
    have hN := hN
    by_cases h0 : (⟨n + 1, h⟩ : Fin cfg0.N).val % 8 = 0
    · have h1 : ¬(⟨n + 1, h⟩ : Fin cfg0.N).val % 8 = 7 := by omega
      rw [outsAt0_A m c ⟨n + 1, h⟩ h0 h1]
      dsimp only
      rw [smax_A (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) ((hcond0_0 (⟨n + 1, h⟩ : Fin cfg0.N)).mpr h0) (fun hq => h1 ((hcond0_1 (⟨n + 1, h⟩ : Fin cfg0.N)).mp hq)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)), smin_A (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) ((hcond0_0 (⟨n + 1, h⟩ : Fin cfg0.N)).mpr h0) (fun hq => h1 ((hcond0_1 (⟨n + 1, h⟩ : Fin cfg0.N)).mp hq)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N))]
      have hc : (cN (n + 1)).val = 0 := h0
      refine step m c ⟨n + 1, h⟩ _ _ (fun y => ?_) (fun y => ?_)
      · show _ = runSup _ (1024 * (cN (n + 1)).val); rw [hc]; exact Tile.reset_max (fun p => pos (mat (X m c)) (lab (T m c)) (row (rN (n + 1) h) p)) y
      · show _ = runInf _ (1024 * (cN (n + 1)).val); rw [hc]; exact Tile.reset_min (fun p => neg (mat (X m c)) (lab (T m c)) (row (rN (n + 1) h) p)) y
    · have hr : rN (n + 1) h = rN n (Nat.lt_of_succ_lt h) := Fin.ext (by show (n + 1) / 8 = n / 8; have : (n + 1) % 8 ≠ 0 := h0; omega)
      have hc : (cN (n + 1)).val = (cN n).val + 1 := by show (n + 1) % 8 = n % 8 + 1; have : (n + 1) % 8 ≠ 0 := h0; omega
      have hold0 : ∀ y : S1024x1.Idx, (outsAt0 m c n (Nat.lt_of_succ_lt h)).2.2.1 y
          = runSup (pos (mat (X m c)) (lab (T m c)) (row (rN (n + 1) h) (y 0))) (1024 * (cN (n + 1)).val) := fun y => by
        rw [ih.1, hr, hc]; rfl
      have hold1 : ∀ y : S1024x1.Idx, (outsAt0 m c n (Nat.lt_of_succ_lt h)).2.2.2 y
          = runInf (neg (mat (X m c)) (lab (T m c)) (row (rN (n + 1) h) (y 0))) (1024 * (cN (n + 1)).val) := fun y => by
        rw [ih.2, hr, hc]; rfl
      by_cases h1 : (⟨n + 1, h⟩ : Fin cfg0.N).val % 8 = 7
      · rw [outsAt0_C m c ⟨n + 1, h⟩ h0 h1]
        dsimp only
        rw [smax_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hq => h0 ((hcond0_0 (⟨n + 1, h⟩ : Fin cfg0.N)).mp hq)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2, smin_C (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hq => h0 ((hcond0_0 (⟨n + 1, h⟩ : Fin cfg0.N)).mp hq)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2]
        exact step m c ⟨n + 1, h⟩ _ _ hold0 hold1
      · rw [outsAt0_B m c ⟨n + 1, h⟩ h0 h1]
        dsimp only
        rw [smax_B (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hq => h0 ((hcond0_0 (⟨n + 1, h⟩ : Fin cfg0.N)).mp hq)) (fun hq => h1 ((hcond0_1 (⟨n + 1, h⟩ : Fin cfg0.N)).mp hq)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2, smin_B (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) scM0_0 (Memref.isWhole_whole _) scM0_1 (Memref.isWhole_whole _) (fun hq => h0 ((hcond0_0 (⟨n + 1, h⟩ : Fin cfg0.N)).mp hq)) (fun hq => h1 ((hcond0_1 (⟨n + 1, h⟩ : Fin cfg0.N)).mp hq)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (iblk m c 5 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.1 (outsAt0 m c ((⟨n + 1, h⟩ : Fin cfg0.N).val - 1) (Nat.lt_of_le_of_lt (Nat.sub_le _ _) (⟨n + 1, h⟩ : Fin cfg0.N).isLt)).2.2.2]
        exact step m c ⟨n + 1, h⟩ _ _ hold0 hold1

/-- The distance window's buffer after point t: block (t / 8, t % 8) of the distance matrix. -/
theorem dist_at (t : Fin cfg0.N) :
    (outsAt0 m c t.val t.isLt).1 = fun y => dist (mat (X m c)) (row (rN t.val t.isLt) (y 0)) (row (cN t.val) (y 1)) := by
  have hN := hN
  have key : k0_pay6 (F := Ideal) (iblk m c 0 t) (iblk m c 1 t) (iblk m c 4 t) (iblk m c 5 t)
      = fun y => dist (mat (X m c)) (row (rN t.val t.isLt) (y 0)) (row (cN t.val) (y 1)) :=
    funext fun y => Tile.dist_tile (iblk m c 0 t) (iblk m c 1 t) (iblk m c 4 t) (iblk m c 5 t) (mat (X m c)) (rN t.val t.isLt) (cN t.val) (blk_xr m c t) (blk_xc m c t) (blk_sr m c t) (blk_sc m c t) y
  by_cases h0 : t.val % 8 = 0
  · have h1 : ¬t.val % 8 = 7 := by omega
    rw [outsAt0_A m c t h0 h1]
    dsimp only
    exact (dist_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun hq => h1 ((hcond0_1 t).mp hq)) (iblk m c 0 t) (iblk m c 1 t) (iblk m c 2 t) (iblk m c 3 t) (iblk m c 4 t) (iblk m c 5 t)).trans key
  · by_cases h1 : t.val % 8 = 7
    · rw [outsAt0_C m c t h0 h1]
      dsimp only
      exact (dist_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hq => h0 ((hcond0_0 t).mp hq)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2).trans key
    · rw [outsAt0_B m c t h0 h1]
      dsimp only
      exact (dist_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hq => h0 ((hcond0_0 t).mp hq)) (fun hq => h1 ((hcond0_1 t).mp hq)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2).trans key

/-- The loss window's buffer after a point of the last column block: the row losses of the row block. -/
theorem loss_at (t : Fin cfg0.N) (h1 : t.val % 8 = 7) :
    (outsAt0 m c t.val t.isLt).2.1 = fun y => rowLoss (mat (X m c)) (lab (T m c)) (row (rN t.val t.isLt) (y 0)) := by
  have h0 : ¬t.val % 8 = 0 := by omega
  have hs := scratch_eq m c t.val t.isLt
  rw [outsAt0_C m c t h0 h1] at hs ⊢
  dsimp only at hs ⊢
  rw [loss_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun hq => h0 ((hcond0_0 t).mp hq)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2]
  have hc : (cN t.val).val = 7 := h1
  funext y
  refine Tile.loss_col (mat (X m c)) (lab (T m c)) (rN t.val t.isLt) _ _ (fun y => ?_) (fun y => ?_) y
  · rw [hs.1]; show runSup _ (1024 * ((cN t.val).val + 1)) = _; rw [hc]
  · rw [hs.2]; show runInf _ (1024 * ((cN t.val).val + 1)) = _; rw [hc]

/-! ## From blocks to arrays -/

/-- What point t writes back of the distance window is block t of the distance matrix. -/
theorem flushed_dist (t : Fin cfg0.N) :
    (dats m 0 c).flushed 6 t = ((cfg0.win 6).blk t).view.read (Elt Ideal) (distArr (X m c)) := by
  show (cfg0.win 6).cut (grid0.coords t) ((dats m 0 c).after 6 t) = _
  rw [after0_6, dist_at]
  funext y
  show dist (mat (X m c)) (row (rN t.val t.isLt) (y 0)) (row (cN t.val) (y 1)) = distArr (X m c) (((cfg0.win 6).blk t).view.emb y)
  unfold distArr
  obtain ⟨-, -, -, -, -, -, -, -, -, -, -, -, e0, e1, -⟩ := idx_facts t
  have a0 : ((cfg0.win 6).blk t).view.emb y 0 = row (rN t.val t.isLt) (y 0) := Fin.ext (by
    show win0_6.index t (0 : Fin 2) * 1024 + 1 * (y 0).val = 1024 * (t.val / 8) + (y 0).val; rw [e0]; omega)
  have a1 : ((cfg0.win 6).blk t).view.emb y 1 = row (cN t.val) (y 1) := Fin.ext (by
    show win0_6.index t (1 : Fin 2) * 1024 + 1 * (y 1).val = 1024 * (t.val % 8) + (y 1).val; rw [e1]; omega)
  rw [a0, a1]

/-- The loss column as an array. -/
def lossCol : S8192x1.Idx → EReal := fun i => rowLoss (mat (X m c)) (lab (T m c)) (i 0)

/-- What a point of the last column block writes back of the loss window is its block of the loss column. -/
theorem flushed_loss (t : Fin cfg0.N) (hf : (cfg0.win 7).flush t = true) :
    (dats m 0 c).flushed 7 t = ((cfg0.win 7).blk t).view.read (Elt Ideal) (lossCol m c) := by
  have h1 : t.val % 8 = 7 := (flush0_7 t).mp hf
  show (cfg0.win 7).cut (grid0.coords t) ((dats m 0 c).after 7 t) = _
  rw [after0_7, loss_at m c t h1]
  funext y
  show rowLoss (mat (X m c)) (lab (T m c)) (row (rN t.val t.isLt) (y 0)) = lossCol m c (((cfg0.win 7).blk t).view.emb y)
  unfold lossCol
  obtain ⟨-, -, -, -, -, -, -, -, -, -, -, -, -, -, e0, e1⟩ := idx_facts t
  have a0 : ((cfg0.win 7).blk t).view.emb y 0 = row (rN t.val t.isLt) (y 0) := Fin.ext (by
    show win0_7.index t (0 : Fin 2) * 1024 + 1 * (y 0).val = 1024 * (t.val / 8) + (y 0).val; rw [e0]; omega)
  rw [a0]

/-- The distance array after the run. -/
theorem final_dist : (dats m 0 c).arrAt 6 cfg0.N = distArr (X m c) :=
  (dats m 0 c).arrAt_eq_of_cover 6 (distArr (X m c)) (fun t _ => flushed_dist m c t) fun i => by
    have hN := hN
    have hi0 : (i 0).val < 8192 := (i 0).isLt
    have hi1 : (i 1).val < 8192 := (i 1).isLt
    let t : Fin cfg0.N := ⟨8 * ((i 0).val / 1024) + (i 1).val / 1024, by omega⟩
    obtain ⟨-, -, -, -, -, -, -, -, -, -, -, -, e0, e1, -⟩ := idx_facts t
    refine ⟨t, flush0_6 t, ?_⟩
    show i ∈ ((View.whole main_v7_0).slice (win0_6.rect t)).set
    rw [View.set_slice_whole, Rect.mem_set_unit]
    intro a
    have ht : t.val = 8 * ((i 0).val / 1024) + (i 1).val / 1024 := rfl
    match a with
    | ⟨0, _⟩ =>
      show win0_6.index t (0 : Fin 2) * 1024 ≤ (i 0).val ∧ (i 0).val < win0_6.index t (0 : Fin 2) * 1024 + 1024
      rw [e0, ht]; omega
    | ⟨1, _⟩ =>
      show win0_6.index t (1 : Fin 2) * 1024 ≤ (i 1).val ∧ (i 1).val < win0_6.index t (1 : Fin 2) * 1024 + 1024
      rw [e1, ht]; omega

/-- The loss column after the run. -/
theorem final_loss : (dats m 0 c).arrAt 7 cfg0.N = lossCol m c :=
  (dats m 0 c).arrAt_eq_of_cover 7 (lossCol m c) (fun t hf => flushed_loss m c t hf) fun i => by
    have hN := hN
    have hi0 : (i 0).val < 8192 := (i 0).isLt
    have hi1 : (i 1).val < 1 := (i 1).isLt
    let t : Fin cfg0.N := ⟨8 * ((i 0).val / 1024) + 7, by omega⟩
    obtain ⟨-, -, -, -, -, -, -, -, -, -, -, -, -, -, e0, e1⟩ := idx_facts t
    have ht : t.val = 8 * ((i 0).val / 1024) + 7 := rfl
    refine ⟨t, (flush0_7 t).mpr (by rw [ht]; omega), ?_⟩
    show i ∈ ((View.whole main_v7_1).slice (win0_7.rect t)).set
    rw [View.set_slice_whole, Rect.mem_set_unit]
    intro a
    match a with
    | ⟨0, _⟩ =>
      show win0_7.index t (0 : Fin 2) * 1024 ≤ (i 0).val ∧ (i 0).val < win0_7.index t (0 : Fin 2) * 1024 + 1024
      rw [e0, ht]; omega
    | ⟨1, _⟩ =>
      show win0_7.index t (1 : Fin 2) * 1 ≤ (i 1).val ∧ (i 1).val < win0_7.index t (1 : Fin 2) * 1 + 1
      rw [e1]; omega

end Cert.Triplet.Points

end
-- ==== Proof.LibMaskedSum.lean ====
/-
  General facts about masked sums and means on the extended reals, for kernels that mask by `select` against a
  reference that masks by a product with a comparison's bit:

  * `maskTerm k y e` — `e` where the word `y` equals `k`, zero elsewhere;
  * `cmpi_eq_one_iff` — an integer equality compare answers the bit 1 exactly when the words are equal;
  * `select_eq_maskTerm` — `select (y == k) e 0` is the masked term;
  * `mul_bit_eq_maskTerm` — `e * (the compare's bit read as a number)` is the masked term, for EVERY extended real
    `e` (`e * 1 = e`, `e * 0 = 0` hold at the infinities too), so no finiteness is needed;
  * `sum_column_rows`, `sum_vector_entries` — a sum over the indices of an [n, 1] column, or of an [n] vector, is the
    sum over `Fin n`;
  * `hostMean_column`, `hostMean_vector` — at the ideal instance the host's sum of an [n, 1] column over both axes (or
    of an [n] vector over its axis) from the zero word, divided by a scalar constant word `d`, is at the scalar's one
    index `(Σ_R entry R) / d`.
-/
import Idealize.ShloMosaic.PureOps.Ideal.Laws
import Idealize.ShloMosaic.Lib.ValueIdx

noncomputable section

namespace Cert.Lib

open Idealize.ShloMosaic Idealize.ShloMosaic.ValueIdx
open scoped BigOperators

/-! ## A masked term, in two spellings -/

/-- One term of a masked sum: `e` where the word `y` is `k`, zero elsewhere. -/
def maskTerm {w : Nat} (k y : BitVec w) (e : EReal) : EReal := if y = k then e else 0

/-- An integer equality compare answers the bit `1` exactly when the two words are equal. -/
theorem cmpi_eq_one_iff {w : Nat} (y k : BitVec w) : IntOp.cmpi .eq y k = 1#1 ↔ y = k := by
  have hb : ∀ b : Bool, BitVec.ofBool b = 1#1 ↔ b = true := fun b => by cases b <;> decide
  simp only [IntOp.cmpi, hb, beq_iff_eq]

/-- A select on the compare's bit between `e` and a zero is the masked term. -/
theorem select_eq_maskTerm {w : Nat} (k y : BitVec w) (e z : EReal) (hz : z = 0) :
    Scalar.select (IntOp.cmpi .eq y k) e z = maskTerm k y e := by
  unfold maskTerm
  by_cases h : y = k
  · rw [if_pos h, (cmpi_eq_one_iff y k).mpr h, select_one]
  · rw [if_neg h, eq_zero_of_ne_one (fun h1 => h ((cmpi_eq_one_iff y k).mp h1)), select_zero, hz]

/-- `e` times the compare's bit read as a number is the masked term: on the extended reals `e * 1 = e` and
    `e * 0 = 0` whatever `e` is. -/
theorem mul_bit_eq_maskTerm {w : Nat} (k y : BitVec w) (e : EReal) :
    e * (((IntOp.cmpi .eq y k).toNat : ℝ) : EReal) = maskTerm k y e := by
  unfold maskTerm
  by_cases h : y = k
  · rw [if_pos h, (cmpi_eq_one_iff y k).mpr h]
    simp
  · rw [if_neg h, eq_zero_of_ne_one (fun h1 => h ((cmpi_eq_one_iff y k).mp h1))]
    simp

/-! ## Sums over a column and over a vector, by rows -/

/-- A sum over the indices of an [n, 1] column is the sum over its rows. -/
theorem sum_column_rows {n : Nat} (f : (⟨2, ![n, 1]⟩ : Shape).Idx → EReal) :
    ∑ i, f i = ∑ R : Fin n, f (ix2 R (0 : Fin 1)) := by
  rw [sum_idx2]
  exact Finset.sum_congr rfl fun R _ => Fin.sum_univ_one _

/-- A rank-1 index is its one coordinate. -/
def vectorIdxEquiv {n : Nat} : (⟨1, ![n]⟩ : Shape).Idx ≃ Fin n where
  toFun i := i 0
  invFun a := ix1 a
  left_inv i := (eq_ix1 i).symm
  right_inv _ := rfl

/-- A sum over the indices of an [n] vector is the sum over its entries. -/
theorem sum_vector_entries {n : Nat} (f : (⟨1, ![n]⟩ : Shape).Idx → EReal) :
    ∑ i, f i = ∑ R : Fin n, f (ix1 R) := by
  rw [← Equiv.sum_comp (vectorIdxEquiv (n := n)).symm f]
  rfl

/-! ## The host's mean of a column and of a vector -/

/-- The sum of an [n, 1] column over both axes from the zero word, divided by the scalar constant word `d`, is the
    sum over the rows divided by what `d` denotes — at the scalar's one index. -/
theorem hostMean_column {n : Nat} (d : BitVec 32) (A : (⟨2, ![n, 1]⟩ : Shape).Idx → EReal)
    (h' : (⟨2, ![n, 1]⟩ : Shape).ReducesTo [0, 1] ⟨0, ![]⟩) (hu : 0 < (⟨0, ![]⟩ : Shape).numel) :
    Host.divf (F := Ideal) (φ := .f32) (Host.reduceAdd (F := Ideal) (φ := .f32) A (constant (F := Ideal) ⟨0, ![]⟩ .f32 0x00000000#32) h' hu)
        (constant (F := Ideal) ⟨0, ![]⟩ .f32 d)
      = fun _ => Ideal.div (∑ R : Fin n, A (ix2 R (0 : Fin 1))) (Ideal.ofBits .f32 d) := by
  funext i
  show Ideal.div (Ideal.hostReduceAdd h' A (Ideal.ofBits .f32 0x00000000#32) i) (Ideal.ofBits .f32 d) = _
  rw [Ideal.hostReduceAdd_total h' (fun b => b.elim0), Ideal.ofBits_zero_f32, zero_add, sum_column_rows]

/-- The same for an [n] vector summed over its one axis. -/
theorem hostMean_vector {n : Nat} (d : BitVec 32) (B : (⟨1, ![n]⟩ : Shape).Idx → EReal)
    (h' : (⟨1, ![n]⟩ : Shape).ReducesTo [0] ⟨0, ![]⟩) (hu : 0 < (⟨0, ![]⟩ : Shape).numel) :
    Host.divf (F := Ideal) (φ := .f32) (Host.reduceAdd (F := Ideal) (φ := .f32) B (constant (F := Ideal) ⟨0, ![]⟩ .f32 0x00000000#32) h' hu)
        (constant (F := Ideal) ⟨0, ![]⟩ .f32 d)
      = fun _ => Ideal.div (∑ R : Fin n, B (ix1 R)) (Ideal.ofBits .f32 d) := by
  funext i
  show Ideal.div (Ideal.hostReduceAdd h' B (Ideal.ofBits .f32 0x00000000#32) i) (Ideal.ofBits .f32 d) = _
  rw [Ideal.hostReduceAdd_total h' (fun b => b.elim0), Ideal.ofBits_zero_f32, zero_add, sum_vector_entries]

end Cert.Lib

end
-- ==== Proof.KernelValue.lean ====
/-
  The idealized kernel's run, read: its two results as functions of the two arguments.

  After the region the distance array holds the whole distance matrix and the loss column every row's loss (Proof/Points.lean).
  The host then sums the loss column over both axes from zero and divides by the count word: the mean of the rows' losses.
-/
import proofs.«103080_j6536940224733_2_alg».proof.Proof.Points
import proofs.«103080_j6536940224733_2_alg».proof.Proof.LibMaskedSum
import Idealize.ShloMosaic.Lib.StableHlo.Run

noncomputable section

open Idealize.ShloMosaic Idealize.ShloMosaic.TcCoe Idealize.SL.Sem
open Idealize.ShloMosaic.Pipeline (Dat)

namespace Cert.Triplet.Kernel

open Cert.KernelIdeal Cert.KernelIdeal.Gen Idealize.ShloMosaic.ValueIdx Cert.Triplet Cert.Triplet.Blocks Cert.Triplet.Points

variable (m : (ℓ : Loc nD τ sig) → Buf (Elt Ideal) ℓ) (ρ : Dev nD → PrngReg)

/-- The host's mean of the loss column is the loss. -/
theorem tail_eq (c : Dev nD) :
    Pipeline.afterTail₀ cfgs (dats m) 0 (V0 m) [hostOps1] c main_v9 = lossArr (X m c) (T m c) := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v7_1)
      = lossCol m c :=
    (Pipeline.withArrays_arr spec0 launch0.win.arr_inj c _ _ 7).trans (final_loss m c)
  rw [hw]
  exact (Cert.Lib.hostMean_column (n := 8192) 0x46000000#32 (lossCol m c) Facts₀.reducesTo_S8192x1_S_d0_1 Facts₀.h_S_).trans
    (funext fun _ => rfl)

/-- THE RUN, READ: every weakly fair execution of the idealized kernel's @main ends with the loss and the distance matrix of
    the specification in its two result buffers, and its arguments as launched. -/
theorem run : θ_run defs (onTc (τ := τ) (main (F := Ideal))) ⟨m, fun _ => 0, ρ⟩ fun r => ∀ c : Dev nD,
      r.2.mem ((c.tc : Thread nD τ).loc main_v9) = lossArr (X m c) (T m c)
      ∧ r.2.mem ((c.tc : Thread nD τ).loc main_v7_0) = distArr (X m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans (tail_eq m c),
     ((h c).1 6).trans (final_dist m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.Triplet.Kernel

end
-- ==== Proof.RefValue.lean ====
/-
  The reference computes the specification.

  Read one operation at a time, the reference's distance matrix is, at (i, j), the guarded square root of the clipped
  squared distance (the squared norms broadcast along rows and columns, minus twice the product of x with its transpose),
  which is the plain square root because the clipped value is nonnegative; its two reductions along a row, a maximum from
  `-inf` and a minimum from `+inf`, are the least upper and greatest lower bounds of the row's candidates; the rest is
  entrywise, and the mean is the sum over the rows divided by the count word.
-/
import proofs.«103080_j6536940224733_2_alg».proof.Proof.RefReadP
import proofs.«103080_j6536940224733_2_alg».proof.Proof.Spec
import proofs.«103080_j6536940224733_2_alg».proof.Proof.LibMaskedSum
import Idealize.ShloMosaic.Lib.ValueIdx
import Idealize.ShloMosaic.PureOps.Ideal.Laws

noncomputable section

namespace Cert.Triplet.Ref

open Idealize.ShloMosaic Idealize.ShloMosaic.ValueIdx Cert.ReferenceIdeal Cert.ReferenceIdeal.ReadP Cert.Triplet
open scoped BigOperators

variable (X : (⟨S8192x128, .f32⟩ : BufTy).Contents (Elt Ideal)) (T : (⟨S8192, .i32⟩ : BufTy).Contents (Elt Ideal))

/-- The squared norms. -/
theorem ref_sq (i : Fin 8192) : val_main_v1 (F := Ideal) X (ix1 i) = sq (mat X) i := by
  rw [val_main_v1_apply]
  unfold sq
  refine congrArg₂ (· + ·) rfl (Finset.sum_congr rfl fun k _ => ?_)
  have e : idx_main_v1 (ix1 i) k = ix2 i k := funext fun a => Fin.ext (by match a with | ⟨0, _⟩ => rfl | ⟨1, _⟩ => rfl)
  rw [e]
  rfl

/-- The product of x with its transpose. -/
theorem ref_cross (i j : Fin 8192) : val_main_v8 (F := Ideal) X (ix2 i j) = cross (mat X) i j := by
  rw [val_main_v8_apply]
  unfold cross
  refine Finset.sum_congr rfl fun k _ => ?_
  have e1 : lidx_main_v8 (ix2 i j) k = ix2 i k := funext fun a => Fin.ext (by match a with | ⟨0, _⟩ => rfl | ⟨1, _⟩ => rfl)
  have e2 : idx_main_v7 (ridx_main_v8 (ix2 i j) k) = ix2 j k := funext fun a => Fin.ext (by match a with | ⟨0, _⟩ => rfl | ⟨1, _⟩ => rfl)
  rw [val_main_v7_apply, e1, e2]

/-- The clipped squared distance. -/
theorem ref_sqd (i j : Fin 8192) : val_main_v13 (F := Ideal) X (ix2 i j) = sqd (mat X) i j := by
  have e1 : idx_main_v2 (idx_main_v4 (ix2 i j)) = ix1 i := funext fun a => Fin.ext (by match a with | ⟨0, _⟩ => rfl)
  have e2 : idx_main_v3 (idx_main_v5 (ix2 i j)) = ix1 j := funext fun a => Fin.ext (by match a with | ⟨0, _⟩ => rfl)
  rw [val_main_v13_apply, val_main_v11_apply, val_main_v6_apply, val_main_v4_apply, val_main_v2_apply, val_main_v5_apply,
    val_main_v3_apply, val_main_v10_apply, val_main_v9_apply, val_main_v12_apply, e1, e2, ref_sq, ref_sq, ref_cross]
  rfl

/-- The distance: the guarded square root is the square root. -/
theorem ref_dist (i j : Fin 8192) : val_main_v20 (F := Ideal) X (ix2 i j) = dist (mat X) i j := by
  rw [val_main_v20_apply, val_main_v18_apply, val_main_v19_apply, val_main_v16_apply, val_main_v15_apply, ref_sqd]
  exact guarded_sqrt (sqd (mat X) i j) _ (le_max_right _ _)

/-- The distance matrix as an array. -/
theorem ref_distArr : val_main_v20 (F := Ideal) X = distArr X := by
  funext y
  obtain ⟨i, j, rfl⟩ : ∃ (i j : Fin 8192), y = ix2 i j := ⟨y 0, y 1, eq_ix2 y⟩
  exact ref_dist X i j

/-- The index of an [8192, 8192] matrix that reduces along axis 1 to row i, at coordinate j, is (i, j). -/
theorem lift_row (h : S8192x8192.Reduces [1] S8192) (i j : Fin 8192) : h.lift (ix1 i) j = ix2 i j := by
  funext d; apply Fin.ext
  match d with | ⟨0, _⟩ => rfl | ⟨1, _⟩ => rfl

/-- The same-label mask. -/
theorem ref_mask (i j : Fin 8192) : val_main_v25 (F := Ideal) T (ix2 i j) = IntOp.cmpi .eq (lab T i) (lab T j) := by
  have e1 : idx_main_v21 (idx_main_v23 (ix2 i j)) = ix1 i := funext fun a => Fin.ext (by match a with | ⟨0, _⟩ => rfl)
  have e2 : idx_main_v22 (idx_main_v24 (ix2 i j)) = ix1 j := funext fun a => Fin.ext (by match a with | ⟨0, _⟩ => rfl)
  rw [val_main_v25_apply, val_main_v23_apply, val_main_v21_apply, val_main_v24_apply, val_main_v22_apply, e1, e2]

/-- The hardest positive: the row maximum from `-inf` is the least upper bound. -/
theorem ref_hardPos (i : Fin 8192) : val_main_v27 (F := Ideal) X T (ix1 i) = hardPos (mat X) (lab T) i := by
  unfold val_main_v27 hardPos
  have hred : S8192x8192.Reduces [1] S8192 := by decide
  refine (Host.reduce_eq_fold_single (FloatOps.maximumf (F := Ideal) (φ := .f32)) (val_main_v26 (F := Ideal) X T)
    (val_main_cst_7 (F := Ideal)) Gen.reducesTo_S8192x8192_S8192_d1 hred Gen.h_S_ (ix1 i)).trans ?_
  refine (fold_max_eq_iSup _ _ ofBits_negInf).trans (congrArg iSup (funext ?_))
  show ∀ j : Fin 8192, val_main_v26 (F := Ideal) X T (hred.lift (ix1 i) j) = pos (mat X) (lab T) i j
  intro j
  rw [lift_row hred i j, val_main_v26_apply, ref_mask, ref_dist]
  unfold pos
  refine congrArg (Scalar.select _ _) ?_
  exact ofBits_negInf

/-- The hardest negative: the row minimum from `+inf` is the greatest lower bound. -/
theorem ref_hardNeg (i : Fin 8192) : val_main_v29 (F := Ideal) X T (ix1 i) = hardNeg (mat X) (lab T) i := by
  unfold val_main_v29 hardNeg
  have hred : S8192x8192.Reduces [1] S8192 := by decide
  refine (Host.reduce_eq_fold_single (FloatOps.minimumf (F := Ideal) (φ := .f32)) (val_main_v28 (F := Ideal) X T)
    (val_main_cst_9 (F := Ideal)) Gen.reducesTo_S8192x8192_S8192_d1 hred Gen.h_S_ (ix1 i)).trans ?_
  refine (fold_min_eq_iInf _ _ ofBits_posInf).trans (congrArg iInf (funext ?_))
  show ∀ j : Fin 8192, val_main_v28 (F := Ideal) X T (hred.lift (ix1 i) j) = neg (mat X) (lab T) i j
  intro j
  rw [lift_row hred i j, val_main_v28_apply, ref_mask, ref_dist]
  unfold neg
  refine congrArg (Scalar.select _ · _) ?_
  exact ofBits_posInf

/-- The row loss. -/
theorem ref_rowLoss (i : Fin 8192) : val_main_v33 (F := Ideal) X T (ix1 i) = rowLoss (mat X) (lab T) i := by
  rw [val_main_v33_apply, val_main_v32_apply, val_main_v30_apply, ref_hardPos, ref_hardNeg]
  rfl

/-- The loss. -/
theorem ref_lossArr : val_main_v35 (F := Ideal) X T = lossArr X T :=
  (Cert.Lib.hostMean_vector (n := 8192) 0x46000000#32 (val_main_v33 (F := Ideal) X T) Gen.reducesTo_S8192_S_d0 Gen.h_S_).trans
    (funext fun _ => congrArg (Ideal.div · (Ideal.ofBits .f32 0x46000000#32))
      (Finset.sum_congr rfl fun R _ => ref_rowLoss X T R))

end Cert.Triplet.Ref

end
-- ==== Proof.lean ====
/- The proof of the certificate's claim.

   Both idealized programs compute, on the extended reals, the triplet loss with hardest-example mining of Proof/Spec.lean:
   the matrix of pairwise distances of the rows of x, and the mean over the rows of max ((farthest same-label row) −
   (nearest other-label row) + margin, 0).  The kernel walks the distance matrix in 8 x 8 tiles, storing each tile and folding
   its row maxima and minima into two scratch columns (Proof/Tile.lean, Proof/Points.lean, Proof/KernelValue.lean); the
   reference computes the whole matrix and reduces along its rows (Proof/RefValue.lean).  The two sides differ in three
   places, none of which is a difference on the extended reals: the kernel takes the square root of the clipped squared
   distance directly where the reference guards it (equal because the clipped value is nonnegative and sqrt 0 = 0); the
   kernel takes each row's maximum tile after tile where the reference takes it at once (both are the least upper bound);
   and the kernel's two finite fill words are named the infinities the reference uses.  No finiteness of the inputs is used.
   The frames and the ledger entries are in Proof/Frames.lean. -/
import proofs.«103080_j6536940224733_2_alg».proof.Defs
import proofs.«103080_j6536940224733_2_alg».proof.Proof.Frames
import proofs.«103080_j6536940224733_2_alg».proof.Proof.KernelValue
import proofs.«103080_j6536940224733_2_alg».proof.Proof.RefValue
import proofs.«103080_j6536940224733_2_alg».proof.Proof.Gen.Kernel
import proofs.«103080_j6536940224733_2_alg».proof.Proof.Gen.KernelIdeal
import proofs.«103080_j6536940224733_2_alg».proof.Proof.Gen.ReferenceIdeal
import proofs.«103080_j6536940224733_2_alg».proof.Proof.Gen.Pre_finite_inputs
import Idealize.ShloMosaic.Adequacy
import Idealize.ShloMosaic.Init

noncomputable section

namespace Cert.Proof

open Idealize.ShloMosaic Idealize.SL.Sem Cert.Triplet

/-- At the ideal instance both programs end with the specification's loss and distance matrix of the arguments, which agree. -/
theorem algebraic : Cert.algebraic_KernelIdeal_ReferenceIdeal := by
  intro m ρ m' ρ' _ hagree
  refine ⟨fun c => lossArr (Blocks.X m c) (Blocks.T m c), fun c => distArr (Blocks.X m c), Kernel.run m ρ, ?_⟩
  refine (θ_run Cert.ReferenceIdeal.defs _ _).mono (fun _ h c => ⟨?_, ?_, (h c).2.2.1, (h c).2.2.2⟩)
    (Cert.ReferenceIdeal.ValueP.run (F := Ideal) m' ρ')
  · rw [(h c).1, Cert.ReferenceIdeal.ReadP.val_main_v35_eq, Ref.ref_lossArr, (hagree c).1, (hagree c).2]
  · rw [(h c).2.1, Cert.ReferenceIdeal.ReadP.val_main_v20_eq, Ref.ref_distArr, (hagree c).1]

theorem claim : Cert.Claim := ⟨Cert.Kernel.Gen.facts, Cert.KernelIdeal.Gen.facts, Cert.ReferenceIdeal.Gen.facts, Cert.Pre_finite_inputs.Gen.facts,
  Frames.frame_k, Frames.frame_ki, Frames.frame_ri, Frames.preserves, algebraic⟩

end Cert.Proof

end
